-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S64x16384 : Shape := ⟨2, ![64, 16384]⟩
abbrev S64 : Shape := ⟨1, ![64]⟩
abbrev S64x1 : Shape := ⟨2, ![64, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .local _ .vmem, ⟨0, _⟩ => ⟨S64x16384, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x16384_S64x16384_0_0 : ∀ a, (![0, 0] : Fin 2 → Nat) a + S64x16384.size a ≤ S64x16384.size a
  h_S64x16384 : 0 < S64x16384.numel
  reduces_S64x16384_S64 : S64x16384.Reduces [1] S64
  shapeCasts_S64_S64x1 : S64.ShapeCasts S64x1
  broadcasts_S64x1_S64x16384 : S64x1.Broadcasts S64x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S4096x16384.size a
  hwx0_0 : ∀ i : grid0.Coords, EltTy.bits .f32 = 32 ∨ (Rect.block (s := S4096x16384) S64x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S4096x16384.size a
  hwx0_1 : ∀ i : grid0.Coords, EltTy.bits .f32 = 32 ∨ (Rect.block (s := S4096x16384) S64x16384.size (cc0_transform_1 i) (hinb0_1 i)).WholeWords (EltTy.packing .f32)

variable [Facts₀]

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S4096, .f32⟩
  | .hbm, ⟨3, _⟩ => ⟨S4096x1, .f32⟩
  | .hbm, ⟨4, _⟩ => ⟨S_, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x16384, .f32⟩
  | .hbm, ⟨24, _⟩ => ⟨S4096x16384, .f32⟩
  | .hbm, ⟨25, _⟩ => ⟨S4096x16384, .f32⟩
  | .hbm, ⟨26, _⟩ => ⟨S4096x16384, .f32⟩
  | .hbm, ⟨27, _⟩ => ⟨S4096x16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x16384, .f32⟩
  | .hbm, ⟨32, _⟩ => ⟨S4096x16384, .f32⟩
  | .hbm, ⟨33, _⟩ => ⟨S_, .f32⟩
  | .hbm, ⟨34, _⟩ => ⟨S4096x16384, .f32⟩
  | .hbm, ⟨35, _⟩ => ⟨S4096x16384, .f32⟩
  | .hbm, ⟨36, _⟩ => ⟨S4096x16384, .f32⟩
  | .hbm, ⟨37, _⟩ => ⟨S4096x16384, .f32⟩
  | .hbm, ⟨38, _⟩ => ⟨S4096x16384, .f32⟩
  | .hbm, ⟨39, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_cst_4 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_cst_6 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4096x16384_S4096_d1 : S4096x16384.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  bcast_S_S4096x16384 : S_.BroadcastsInDim S4096x16384 (![] : Fin 0 → Fin S4096x16384.rank)

variable [Facts₀]

class Facts : Prop extends Facts₀ where

variable [Facts]
-- ==== Proof.Spec.lean ====
/-
  Per-row asymmetric min/max fake quantisation over the extended reals: the common specification of the two
  programs, and the one algebraic step between their spellings.

  For a row with minimum `mn` and maximum `mx` (each folded from the row's entries, starting at +∞ and -∞):
    lo    = min mn 0,  hi = max mx 0                      (the range widened to hold 0)
    scale = max ((hi - lo) / 255) ε                        (ε = the f32 nearest 1e-8, a positive real)
    zero  = round (-lo / scale)                            (ties to even)
    out x = (min 255 (max 0 (round (x / scale) + zero)) - zero) · scale
  One program divides each entry by `scale` and negates `lo`; the other multiplies each entry by `1 / scale` and
  subtracts `lo` from 0.  On the extended reals the quotient `x / s` IS `x · s⁻¹` whenever `s ≠ 0`, `1 / s` is
  `1 · s⁻¹ = s⁻¹`, and `0 - a = -a`; and `scale ≥ ε > 0` always, whatever the row holds (even an infinity).  So the
  two spellings agree for every input, finite or not.
-/
import Idealize.ShloMosaic.PureOps.Ideal
import Idealize.ShloMosaic.PureOps.Ideal.Laws
import Idealize.ShloMosaic.Lib.ValueIdx

noncomputable section

namespace Cert.FakeQuant

open Idealize.ShloMosaic Idealize.ShloMosaic.ValueIdx

/-! ## The constants -/

/-- `0.0`. -/
abbrev cZero : EReal := Ideal.ofBits .f32 0x00000000#32
/-- `1.0`. -/
abbrev cOne : EReal := Ideal.ofBits .f32 0x3F800000#32
/-- `255.0`, the number of quantisation steps. -/
abbrev cLevels : EReal := Ideal.ofBits .f32 0x437F0000#32
/-- The f32 nearest `1e-8`: the least admitted step. -/
abbrev cEps : EReal := Ideal.ofBits .f32 0x322BCC77#32
/-- `+∞`, where a minimum starts. -/
abbrev cTop : EReal := Ideal.ofBits .f32 0x7F800000#32
/-- `-∞`, where a maximum starts. -/
abbrev cBot : EReal := Ideal.ofBits .f32 0xFF800000#32

/-- The word `0x3F800000` denotes 2²³ · 2⁻²³ = 1. -/
theorem cOne_eq : cOne = 1 := by
  simp [Ideal.ofBits, Ideal.ieee]
  rw [← EReal.coe_mul]
  norm_num

/-- The word `0x322BCC77` denotes 11258999 · 2⁻⁵⁰, a positive real. -/
theorem cEps_pos : (0 : EReal) < cEps := by
  simp [Ideal.ofBits, Ideal.ieee]
  rw [← EReal.coe_mul]
  exact EReal.coe_pos.mpr (by positivity)

/-! ## One row's statistics and one entry's image -/

/-- Rounding to the nearest integer, ties to even; the infinities fixed. -/
abbrev rnd (x : EReal) : EReal := Ideal.liftRound Ideal.roundHalfEven x

/-- The quantisation step of a row with minimum `mn` and maximum `mx`. -/
def scale (mn mx : EReal) : EReal := max (Ideal.div (max mx cZero - min mn cZero) cLevels) cEps

/-- The step is at least ε, so it is never 0. -/
theorem scale_ne_zero (mn mx : EReal) : scale mn mx ≠ 0 :=
  ne_of_gt (lt_of_lt_of_le cEps_pos (le_max_right _ _))

/-- The zero point, with the lower end subtracted from 0. -/
def zeroSub (mn mx : EReal) : EReal := rnd (Ideal.div (cZero - min mn cZero) (scale mn mx))

/-- The zero point, with the lower end negated. -/
def zeroNeg (mn mx : EReal) : EReal := rnd (Ideal.div (-(min mn cZero)) (scale mn mx))

/-- `0 - a = -a` on the extended reals. -/
theorem zeroSub_eq_zeroNeg (mn mx : EReal) : zeroSub mn mx = zeroNeg mn mx := by
  unfold zeroSub zeroNeg
  rw [show cZero - min mn cZero = -(min mn cZero) from by
    rw [show cZero = 0 from Ideal.ofBits_zero_f32, zero_sub]]

/-- An entry's image, multiplying by the reciprocal of the step. -/
def quantMul (mn mx x : EReal) : EReal :=
  (min cLevels (max cZero (rnd (x * Ideal.div cOne (scale mn mx)) + zeroSub mn mx)) - zeroSub mn mx) * scale mn mx

/-- An entry's image, dividing by the step. -/
def quantDiv (mn mx x : EReal) : EReal :=
  (min cLevels (max cZero (rnd (Ideal.div x (scale mn mx)) + zeroNeg mn mx)) - zeroNeg mn mx) * scale mn mx

/-- Off zero the quotient is the product with the inverse, and `1 / s` is that inverse. -/
theorem mul_recip (x s : EReal) (hs : s ≠ 0) : x * Ideal.div cOne s = Ideal.div x s := by
  unfold Ideal.div
  rw [if_neg hs, if_neg hs, cOne_eq, one_mul]

/-- The two spellings of an entry's image agree, for every extended real. -/
theorem quantMul_eq_quantDiv (mn mx x : EReal) : quantMul mn mx x = quantDiv mn mx x := by
  unfold quantMul quantDiv
  rw [mul_recip _ _ (scale_ne_zero mn mx), zeroSub_eq_zeroNeg]

/-! ## Rows of an array -/

/-- The minimum of row `r` of an array with 16384 columns, folded from +∞ over the columns. -/
def rowMin {n : Nat} (x : (⟨2, ![n, 16384]⟩ : Shape).Idx → EReal) (r : Fin n) : EReal :=
  (Finset.univ : Finset (Fin 16384)).fold min cTop (fun k => x (ix2 r k))

/-- The maximum of row `r`, folded from -∞ over the columns. -/
def rowMax {n : Nat} (x : (⟨2, ![n, 16384]⟩ : Shape).Idx → EReal) (r : Fin n) : EReal :=
  (Finset.univ : Finset (Fin 16384)).fold max cBot (fun k => x (ix2 r k))

/-- THE SPECIFICATION: every entry quantised by its own row's statistics. -/
def G {n : Nat} (x : (⟨2, ![n, 16384]⟩ : Shape).Idx → EReal) : (⟨2, ![n, 16384]⟩ : Shape).Idx → EReal :=
  fun i => quantMul (rowMin x (i 0)) (rowMax x (i 0)) (x i)

/-- The specification at row `r`, column `k`. -/
theorem G_ix2 {n : Nat} (x : (⟨2, ![n, 16384]⟩ : Shape).Idx → EReal) (r : Fin n) (k : Fin 16384) :
    G x (ix2 r k) = quantMul (rowMin x r) (rowMax x r) (x (ix2 r k)) := rfl

/-- A block of rows of an array has the array's row statistics: if `B` at (p, k) is `X` at (r p, k) for every
    column `k`, then row `p` of `B` and row `r p` of `X` have one minimum, one maximum, and one image. -/
theorem G_block {n n' : Nat} (X : (⟨2, ![n, 16384]⟩ : Shape).Idx → EReal) (B : (⟨2, ![n', 16384]⟩ : Shape).Idx → EReal)
    (p : Fin n') (r : Fin n) (h : ∀ k : Fin 16384, B (ix2 p k) = X (ix2 r k)) (k : Fin 16384) :
    G B (ix2 p k) = G X (ix2 r k) := by
  have hf : (fun k => B (ix2 p k)) = fun k => X (ix2 r k) := funext h
  rw [G_ix2, G_ix2, h k]
  unfold rowMin rowMax
  rw [hf]

end Cert.FakeQuant

end
-- ==== Proof.KernelBlock.lean ====
/-
  One grid point of the kernel, as mathematics: the block a point leaves is the row-wise fake quantisation
  of the block it loaded.

  The body reduces each of the block's 64 rows over its 16384 lanes twice (a minimum from +∞, a maximum from -∞),
  turns the two columns of statistics into a step and a zero point per row, and maps every entry of the row through
  them.  A lane reduction over one axis is the fold of `min` (or `max`) over that axis's coordinates, in any order,
  because `min` and `max` commute and associate; so row `p` of the result depends on row `p` of the block only,
  and is the specification `FakeQuant.G` of the block at that row.
-/
import proofs.«104878_j16260746183110_2_alg».proof.Proof.Gen.KernelIdeal.Value
import proofs.«104878_j16260746183110_2_alg».proof.Proof.Spec
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx Cert.FakeQuant

/-- The source index above row `p` with lane `k` inserted is (p, k). -/
theorem lift_row (p : Fin 64) (k : Fin 16384) : reduces_S64x16384_S64.lift (ix1 p) k = ix2 p k :=
  funext fun a => Fin.ext (match a with | ⟨0, _⟩ => rfl | ⟨1, _⟩ => rfl)

/-- The lane minimum of row `p`: the fold of `min` from +∞ over the row's entries. -/
theorem laneMin (P0 : FVec Ideal S64x16384 .f32) (hφ : FKind.Formats .f32)
    (hacc : (0x7F800000#32 : BitVec 32) = FKind.minimumf.neutral .f32 hφ) (p : Fin 64) :
    multiReduction .minimumf [1] S64 P0 0x7F800000#32 reduces_S64x16384_S64 hφ hacc (ix1 p) = rowMin P0 p := by
  refine (multiReduction_minimumf_eq_fold P0 _ reduces_S64x16384_S64 hφ hacc (ix1 p)).trans ?_
  refine (reduces_S64x16384_S64.fold_filter_drop_single FloatOps.minimumf _ P0 (ix1 p)).trans ?_
  have e : (P0 ∘ reduces_S64x16384_S64.lift (ix1 p)) = fun k : Fin 16384 => P0 (ix2 p k) :=
    funext fun k => congrArg P0 (lift_row p k)
  rw [e]
  rfl

/-- The lane maximum of row `p`: the fold of `max` from -∞ over the row's entries. -/
theorem laneMax (P0 : FVec Ideal S64x16384 .f32) (hφ : FKind.Formats .f32)
    (hacc : (0xFF800000#32 : BitVec 32) = FKind.maximumf.neutral .f32 hφ) (p : Fin 64) :
    multiReduction .maximumf [1] S64 P0 0xFF800000#32 reduces_S64x16384_S64 hφ hacc (ix1 p) = rowMax P0 p := by
  refine (Ideal.multiReduction_maximumf_single P0 _ reduces_S64x16384_S64 hφ hacc (ix1 p)).trans ?_
  have e : (P0 ∘ reduces_S64x16384_S64.lift (ix1 p)) = fun k : Fin 16384 => P0 (ix2 p k) :=
    funext fun k => congrArg P0 (lift_row p k)
  rw [e]
  rfl

/-- WHAT A POINT LEAVES IN ITS BLOCK, at row `p` and lane `k`: the entry it loaded there, quantised by the
    statistics of row `p` of the loaded block. -/
theorem block_eq (P0 : FVec Ideal S64x16384 .f32) (p : Fin 64) (k : Fin 16384) :
    Value.E1 (F := Ideal) P0 (ix2 p k) = G P0 (ix2 p k) := by
  have i0 : Value.ix1_0 (ix2 p k) = ix2 p k := funext fun a => match a with | ⟨0, _⟩ => rfl | ⟨1, _⟩ => rfl
  have i1 : Value.ix1_1 (ix2 p k) = ix1 p := funext fun a => match a with | ⟨0, _⟩ => rfl
  have i2 : Value.ix1_2 (ix2 p k) = ix1 p := funext fun a => match a with | ⟨0, _⟩ => rfl
  have i3 : Value.ix1_3 (ix2 p k) = ix1 p := funext fun a => match a with | ⟨0, _⟩ => rfl
  have i4 : Value.ix1_4 (ix2 p k) = ix1 p := funext fun a => match a with | ⟨0, _⟩ => rfl
  have i5 : Value.ix1_5 (ix2 p k) = ix1 p := funext fun a => match a with | ⟨0, _⟩ => rfl
  have i6 : Value.ix1_6 (ix2 p k) = ix1 p := funext fun a => match a with | ⟨0, _⟩ => rfl
  have i7 : Value.ix1_7 (ix2 p k) = ix1 p := funext fun a => match a with | ⟨0, _⟩ => rfl
  have i8 : Value.ix1_8 (ix2 p k) = ix1 p := funext fun a => match a with | ⟨0, _⟩ => rfl
  have i9 : Value.ix1_9 (ix2 p k) = ix1 p := funext fun a => match a with | ⟨0, _⟩ => rfl
  have i10 : Value.ix1_10 (ix2 p k) = ix1 p := funext fun a => match a with | ⟨0, _⟩ => rfl
  rw [G_ix2, ← laneMin P0 (.inl rfl) rfl p, ← laneMax P0 (.inl rfl) rfl p]
  dsimp only [Value.E1]
  rw [i0, i1, i2, i3, i4, i5, i6, i7, i8, i9, i10]
  rfl

end Cert.KernelIdeal.Block

end
-- ==== Proof.KernelValue.lean ====
/-
  The kernel's result array, as one function of its argument: the row-wise fake quantisation `FakeQuant.G`.

  The grid has 64 points; point `t` loads rows `64 t … 64 t + 63` of the argument (all 16384 columns) and writes
  back the same rows of the result.  A row's statistics are folds over that row alone, so the block a point leaves
  — the quantisation of the loaded block by its own rows' statistics — is exactly those rows of the quantisation of
  the whole argument.  The 64 blocks tile the 4096 rows (row `r` lies in block `r / 64`), so the result array ends
  holding the specification everywhere.
-/
import proofs.«104878_j16260746183110_2_alg».proof.Proof.Gen.KernelIdeal.Value
import proofs.«104878_j16260746183110_2_alg».proof.Proof.KernelBlock
import proofs.«104878_j16260746183110_2_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.FakeQuant

variable (m : (ℓ : Loc nD τ sig) → Buf (Elt Ideal) ℓ) (ρ : Dev nD → PrngReg)

theorem zero_offsets : (![0, 0] : Fin 2 → Nat) = fun _ => 0 := funext fun a => by fin_cases a <;> rfl

/-- Both windows' block at point `t` is block row `t`, block column 0 (decided over the 64 points). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- There are 64 points. -/
theorem points : cfg0.N = 64 := by decide

/-- The argument as the region finds it. -/
abbrev X (c : Dev nD) : FVec Ideal S4096x16384 .f32 := V m c main_arg0

/-- The block point `t` loads is rows `64 t …` of the argument: its entry (p, k) is the argument's (64 t + p, k). -/
theorem loaded_entry (c : Dev nD) (t : Fin cfg0.N) (p : Fin 64) (k : Fin 16384) (r : Fin 4096)
    (hr : r.val = 64 * t.val + p.val) :
    (iblk m c 0 t : FVec Ideal S64x16384 .f32) (ix2 p k) = X m c (ix2 r k) := by
  obtain ⟨e0, e1, -, -⟩ := block_index t
  unfold iblk
  rw [View.read_apply]
  show V m c main_arg0 _ = V m c main_arg0 _
  refine congrArg (V m c main_arg0) ?_
  funext a
  apply Fin.ext
  match a with
  | ⟨0, _⟩ => show win0_0.index t (0 : Fin 2) * 64 + 1 * p.val = r.val; rw [e0, hr]; omega
  | ⟨1, _⟩ => show win0_0.index t (1 : Fin 2) * 16384 + 1 * k.val = k.val; rw [e1]; omega

/-- Where entry (p, k) of point `t`'s output block lands in the result array: (64 t + p, k). -/
theorem written_entry (t : Fin cfg0.N) (p : Fin 64) (k : Fin 16384) (r : Fin 4096) (hr : r.val = 64 * t.val + p.val) :
    ((cfg0.win 1).blk t).view.emb (ix2 p k : S64x16384.Idx) = (ix2 r k : S4096x16384.Idx) := by
  obtain ⟨-, -, e0, e1⟩ := block_index t
  funext a
  apply Fin.ext
  match a with
  | ⟨0, _⟩ => show win0_1.index t (0 : Fin 2) * 64 + 1 * p.val = r.val; rw [e0, hr]; omega
  | ⟨1, _⟩ => show win0_1.index t (1 : Fin 2) * 16384 + 1 * k.val = k.val; rw [e1]; omega

/-- WHAT POINT `t` WRITES BACK is block `t` of the specification of the argument. -/
theorem flushed_eq (c : Dev nD) (t : Fin cfg0.N) :
    (dats m 0 c).flushed 1 t = ((cfg0.win 1).blk t).view.read (Elt Ideal) (G (X m c)) := by
  rw [Value.flushed1]
  unfold out0_1
  rw [View.ld_unit_zero (S := S64x16384) zero_offsets]
  refine funext fun (j : S64x16384.Idx) => ?_
  obtain ⟨p, k, rfl⟩ : ∃ (p : Fin 64) (k : Fin 16384), j = ix2 p k := ⟨j 0, j 1, eq_ix2 j⟩
  have ht : t.val < 64 := lt_of_lt_of_eq t.isLt points
  have hlt : 64 * t.val + p.val < 4096 := by have := p.isLt; omega
  show (View.canon [(⟨r0_0, k0_pay1 (iblk m c 0 t)⟩ : View.Piece (Elt Ideal) S64x16384 .f32)] : Vec Ideal S64x16384 .f32) (ix2 p k)
    = G (X m c) (((cfg0.win 1).blk t).view.emb (ix2 p k : S64x16384.Idx))
  refine (Value.canon1_eq (iblk m c 0 t) (ix2 p k)).trans ?_
  refine (Block.block_eq (iblk m c 0 t) p k).trans ?_
  rw [written_entry t p k ⟨64 * t.val + p.val, hlt⟩ rfl]
  exact G_block (X m c) (iblk m c 0 t) p ⟨64 * t.val + p.val, hlt⟩
    (fun k' => loaded_entry m c t p k' ⟨64 * t.val + p.val, hlt⟩ rfl) k

/-- An index of the result is in point `t`'s block iff each coordinate is in the block's range on its axis. -/
theorem mem_block (t : Fin cfg0.N) (i : S4096x16384.Idx) :
    i ∈ ((cfg0.win 1).blk t).view.set ↔ ∀ a : Fin 2, win0_1.index t a * S64x16384.size a ≤ (i a).val
      ∧ (i a).val < win0_1.index t a * S64x16384.size a + S64x16384.size a := by
  show i ∈ ((View.whole main_v0).slice (win0_1.rect t)).set ↔ _
  rw [View.set_slice_whole, Rect.mem_set_unit]
  exact Iff.rfl

/-- Every entry of the result is written back by some point: row `r` by point `r / 64`. -/
theorem covered (i : S4096x16384.Idx) :
    ∃ t : Fin cfg0.N, (cfg0.win 1).flush t = true ∧ i ∈ ((cfg0.win 1).blk t).view.set := by
  have hi0 : (i 0).val < 4096 := (i 0).isLt
  have hi1 : (i 1).val < 16384 := (i 1).isLt
  have ht : (i 0).val / 64 < cfg0.N := by rw [points]; omega
  obtain ⟨-, -, e0, e1⟩ := block_index ⟨(i 0).val / 64, ht⟩
  refine ⟨⟨(i 0).val / 64, ht⟩, flush0_1 _, ?_⟩
  rw [mem_block]
  intro a
  match a with
  | ⟨0, _⟩ =>
    show win0_1.index ⟨(i 0).val / 64, ht⟩ (0 : Fin 2) * 64 ≤ (i 0).val
      ∧ (i 0).val < win0_1.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_1.index ⟨(i 0).val / 64, ht⟩ (1 : Fin 2) * 16384 ≤ (i 1).val
      ∧ (i 1).val < win0_1.index ⟨(i 0).val / 64, ht⟩ (1 : Fin 2) * 16384 + 16384
    rw [e1]; omega

/-- THE RESULT ARRAY after the run is the specification of the argument. -/
theorem final (c : Dev nD) : (dats m 0 c).arrAt 1 cfg0.N = G (X m c) :=
  (dats m 0 c).arrAt_eq_of_cover 1 (G (X m c)) (fun t _ => flushed_eq m c t) covered

/-- The run, read: the result array at the specification of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Value.run_blocks m ρ)

end Cert.KernelIdeal.Whole

end
-- ==== Proof.RefValue.lean ====
/-
  The reference, read at an index: its result is the row-wise fake quantisation `FakeQuant.G` of its argument, in
  the dividing spelling.

  The two row reductions are one-axis folds of `min` from +∞ and of `max` from -∞ over a row's 16384 entries; every
  later stage up to the zero point is a column [4096, 1] computed row by row; the last stages broadcast the
  columns along the rows and work entry by entry.  Stage by stage the reference's term at row `r`, column `k` is
  `quantDiv (rowMin x r) (rowMax x r) (x (r, k))`, which the specification's `quantMul` equals on every extended real.
-/
import proofs.«104878_j16260746183110_2_alg».proof.Proof.Gen.ReferenceIdeal.Read
import proofs.«104878_j16260746183110_2_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.FakeQuant

/-- Reducing the columns of a [4096, 16384] array leaves its 4096 rows. -/
theorem reduces_rows : S4096x16384.Reduces [1] S4096 := by decide

/-- The source index above row `r` with column `k` inserted is (r, k). -/
theorem lift_row (r : Fin 4096) (k : Fin 16384) : reduces_rows.lift (ix1 r) k = ix2 r k :=
  funext fun a => Fin.ext (match a with | ⟨0, _⟩ => rfl | ⟨1, _⟩ => rfl)

/-- The reference's row minimum: the fold of `min` from +∞ over the row's entries. -/
theorem hostMin (x : FVec Ideal S4096x16384 .f32) (r : Fin 4096) :
    val_main_v0 (F := Ideal) x (ix1 r) = rowMin x r := by
  unfold val_main_v0
  refine (Host.reduce_eq_fold_single (FloatOps.minimumf (F := Ideal) (φ := .f32)) x _ reducesTo_S4096x16384_S4096_d1 reduces_rows h_S_ (ix1 r)).trans ?_
  have e : (x ∘ reduces_rows.lift (ix1 r)) = fun k : Fin 16384 => x (ix2 r k) :=
    funext fun k => congrArg x (lift_row r k)
  rw [e]
  rfl

/-- The reference's row maximum: the fold of `max` from -∞ over the row's entries. -/
theorem hostMax (x : FVec Ideal S4096x16384 .f32) (r : Fin 4096) :
    val_main_v4 (F := Ideal) x (ix1 r) = rowMax x r := by
  unfold val_main_v4
  refine (Host.reduce_eq_fold_single (FloatOps.maximumf (F := Ideal) (φ := .f32)) x _ reducesTo_S4096x16384_S4096_d1 reduces_rows h_S_ (ix1 r)).trans ?_
  have e : (x ∘ reduces_rows.lift (ix1 r)) = fun k : Fin 16384 => x (ix2 r k) :=
    funext fun k => congrArg x (lift_row r k)
  rw [e]
  rfl

/-! ## Where the broadcasts read -/

/-- A column entry (r, 0) comes from entry r of the reduced vector. -/
theorem col_of_vec1 (r : Fin 4096) : idx_main_v1 (ix2 r (0 : Fin 1)) = ix1 r :=
  funext fun a => match a with | ⟨0, _⟩ => rfl
theorem col_of_vec5 (r : Fin 4096) : idx_main_v5 (ix2 r (0 : Fin 1)) = ix1 r :=
  funext fun a => match a with | ⟨0, _⟩ => rfl

/-- An array entry (r, k) reads the column at (r, 0). -/
theorem arr_of_col16 (r : Fin 4096) (k : Fin 16384) : idx_main_v16 (ix2 r k) = ix2 r (0 : Fin 1) :=
  funext fun a => match a with | ⟨0, _⟩ => rfl | ⟨1, _⟩ => rfl
theorem arr_of_col19 (r : Fin 4096) (k : Fin 16384) : idx_main_v19 (ix2 r k) = ix2 r (0 : Fin 1) :=
  funext fun a => match a with | ⟨0, _⟩ => rfl | ⟨1, _⟩ => rfl
theorem arr_of_col22 (r : Fin 4096) (k : Fin 16384) : idx_main_v22 (ix2 r k) = ix2 r (0 : Fin 1) :=
  funext fun a => match a with | ⟨0, _⟩ => rfl | ⟨1, _⟩ => rfl
theorem arr_of_col24 (r : Fin 4096) (k : Fin 16384) : idx_main_v24 (ix2 r k) = ix2 r (0 : Fin 1) :=
  funext fun a => match a with | ⟨0, _⟩ => rfl | ⟨1, _⟩ => rfl

/-! ## The columns of statistics, row by row -/

/-- The lower end of row `r`'s range: its minimum, or 0 if that is smaller. -/
theorem lower_row (x : FVec Ideal S4096x16384 .f32) (r : Fin 4096) :
    val_main_v3 (F := Ideal) x (ix2 r (0 : Fin 1)) = min (rowMin x r) cZero := by
  rw [val_main_v3_apply, val_main_v1_apply, val_main_v2_apply, val_main_cst_0_apply, col_of_vec1, hostMin]
  rfl

/-- The upper end of row `r`'s range: its maximum, or 0 if that is larger. -/
theorem upper_row (x : FVec Ideal S4096x16384 .f32) (r : Fin 4096) :
    val_main_v7 (F := Ideal) x (ix2 r (0 : Fin 1)) = max (rowMax x r) cZero := by
  rw [val_main_v7_apply, val_main_v5_apply, val_main_v6_apply, val_main_cst_2_apply, col_of_vec5, hostMax]
  rfl

/-- Row `r`'s quantisation step. -/
theorem scale_row (x : FVec Ideal S4096x16384 .f32) (r : Fin 4096) :
    val_main_v12 (F := Ideal) x (ix2 r (0 : Fin 1)) = scale (rowMin x r) (rowMax x r) := by
  rw [val_main_v12_apply, val_main_v10_apply, val_main_v8_apply, upper_row, lower_row, val_main_v9_apply,
    val_main_cst_3_apply, val_main_v11_apply, val_main_cst_4_apply]
  rfl

/-- Row `r`'s zero point. -/
theorem zero_row (x : FVec Ideal S4096x16384 .f32) (r : Fin 4096) :
    val_main_v15 (F := Ideal) x (ix2 r (0 : Fin 1)) = zeroNeg (rowMin x r) (rowMax x r) := by
  rw [val_main_v15_apply, val_main_v14_apply, val_main_v13_apply, lower_row, scale_row]
  rfl

/-! ## The result -/

/-- THE REFERENCE IS THE SPECIFICATION: entry by entry its result is the fake quantisation of its argument. -/
theorem ref_eq (x : FVec Ideal S4096x16384 .f32) : val_main_v25 (F := Ideal) x = G x := by
  funext i
  obtain ⟨r, k, rfl⟩ : ∃ (r : Fin 4096) (k : Fin 16384), i = ix2 r k := ⟨i 0, i 1, eq_ix2 i⟩
  rw [G_ix2, quantMul_eq_quantDiv]
  rw [val_main_v25_apply, val_main_v23_apply, val_main_v21_apply, val_main_call2_v4_apply, val_main_call2_v3_apply,
    val_main_cst_6_apply, val_main_call2_v2_apply, val_main_call2_v1_apply, val_main_call2_v0_apply,
    val_main_cst_5_apply, val_main_v20_apply, val_main_v18_apply, val_main_v17_apply, val_main_v16_apply,
    val_main_v19_apply, val_main_v22_apply, val_main_v24_apply, arr_of_col16, arr_of_col19, arr_of_col22,
    arr_of_col24, scale_row, zero_row]
  rfl

end Cert.ReferenceIdeal.RefValue

end
-- ==== Proof.lean ====
/-
  Per-row asymmetric min/max fake quantisation of a [4096, 16384] array: a kernel that handles 64 rows per grid
  point, against the whole-array reference.

  Both programs compute, for every row, the row's minimum and maximum, widen the range to hold 0, take the step
  `scale = max ((hi - lo) / 255) ε` and the zero point `round (-lo / scale)`, and send every entry `x` of the row to
  `(clip (round (x / scale) + zero) 0 255 - zero) · scale`.  They differ in three spellings only: the kernel
  multiplies by `1 / scale` where the reference divides by `scale`; it writes `0 - lo` where the reference
  writes `-lo`; and it reduces a row inside a block of 64 rows where the reference reduces it inside the whole
  array.  On the extended reals the first two are identities because `scale ≥ ε > 0` (Proof/Spec.lean), and the
  third because a row's fold reads that row alone (Proof/KernelBlock.lean, Proof/KernelValue.lean,
  Proof/RefValue.lean).  Neither step uses that the inputs are finite, so the precondition is never opened.

  The three frames are the generated ones (the reference's is its generated run with the result dropped); the
  idealisation rewrote nothing, so `preserves` is `True`.
-/
import proofs.«104878_j16260746183110_2_alg».proof.Defs
import proofs.«104878_j16260746183110_2_alg».proof.Proof.Gen.Kernel
import proofs.«104878_j16260746183110_2_alg».proof.Proof.Gen.Kernel.Frame
import proofs.«104878_j16260746183110_2_alg».proof.Proof.Gen.KernelIdeal
import proofs.«104878_j16260746183110_2_alg».proof.Proof.Gen.KernelIdeal.Frame
import proofs.«104878_j16260746183110_2_alg».proof.Proof.Gen.KernelIdeal.Value
import proofs.«104878_j16260746183110_2_alg».proof.Proof.Gen.ReferenceIdeal
import proofs.«104878_j16260746183110_2_alg».proof.Proof.Gen.ReferenceIdeal.Run
import proofs.«104878_j16260746183110_2_alg».proof.Proof.Gen.ReferenceIdeal.Read
import proofs.«104878_j16260746183110_2_alg».proof.Proof.Gen.Pre_finite_inputs
import proofs.«104878_j16260746183110_2_alg».proof.Proof.Spec
import proofs.«104878_j16260746183110_2_alg».proof.Proof.KernelValue
import proofs.«104878_j16260746183110_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its argument as it found it. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Over the extended reals both programs end with the row-wise fake quantisation `FakeQuant.G` of the argument. -/
theorem algebraic : Cert.algebraic_KernelIdeal_ReferenceIdeal := by
  intro m ρ m' ρ' _ hagree
  refine ⟨fun c => Cert.FakeQuant.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
